-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x512x512 : Shape := ⟨4, ![16, 4, 512, 512]⟩
abbrev S_ : Shape := ⟨0, ![]⟩

class Facts : Prop where
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  h_S_ : 0 < S_.numel

variable [Facts]

def fn {F : FTy → Type} [FloatOps F] (main_arg0 : FVec F S16x4x512x512 .f32) : IVec S_ 1 :=
  let main_v0 : FVec F S16x4x512x512 .f32 := Host.absf main_arg0
  let main_cst : FVec F S_ .f32 := constant S_ .f32 0x7F800000#32
  let main_v1 : FVec F S16x4x512x512 .f32 := broadcastInDim S16x4x512x512 ![] bcast_S_S16x4x512x512 main_cst
  let main_v2 : IVec S16x4x512x512 1 := cmpf .olt main_v0 main_v1
  let main_c : IVec S_ 1 := constantI S_ 1 1#1
  let main_v3 : IVec S_ 1 := (fun x v => Host.reduce IntOp.andi x v reducesTo_S16x4x512x512_S_d0_1_2_3 h_S_) main_v2 main_c
  main_v3
-- ==== Kernel.lean ====
abbrev S16x4x512x512 : Shape := ⟨4, ![16, 4, 512, 512]⟩
abbrev S_ : Shape := ⟨0, ![]⟩
abbrev S16x4x514x514 : Shape := ⟨4, ![16, 4, 514, 514]⟩
abbrev S16x3x512x512 : Shape := ⟨4, ![16, 3, 512, 512]⟩
abbrev S1x4x514x514 : Shape := ⟨4, ![1, 4, 514, 514]⟩
abbrev S1x3x512x512 : Shape := ⟨4, ![1, 3, 512, 512]⟩
abbrev S1x1x512x512 : Shape := ⟨4, ![1, 1, 512, 512]⟩

abbrev nBuf : Space → Nat
  | .hbm => 5
  | .vmem => 4
  | .smem => 0
  | _ => 0

abbrev bufTy : (tb : Table) → Fin (tcTables nBuf tb) → BufTy
  | .hbm, ⟨0, _⟩ => ⟨S16x4x512x512, .f32⟩
  | .hbm, ⟨1, _⟩ => ⟨S_, .i32⟩
  | .hbm, ⟨2, _⟩ => ⟨S_, .f32⟩
  | .hbm, ⟨3, _⟩ => ⟨S16x4x514x514, .f32⟩
  | .hbm, ⟨4, _⟩ => ⟨S16x3x512x512, .f32⟩
  | .local _ .vmem, ⟨0, _⟩ => ⟨S1x4x514x514, .f32⟩
  | .local _ .vmem, ⟨1, _⟩ => ⟨S1x4x514x514, .f32⟩
  | .local _ .vmem, ⟨2, _⟩ => ⟨S1x3x512x512, .f32⟩
  | .local _ .vmem, ⟨3, _⟩ => ⟨S1x3x512x512, .f32⟩
  | _, _ => ⟨S16x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x514x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S16x4x512x512_S16x4x514x514_000_000_110_110 : S16x4x512x512.Pads (![0, 0, 1, 1] : Fin 4 → Nat) ![0, 0, 1, 1] ![0, 0, 0, 0] S16x4x514x514
  h_S_ : 0 < S_.numel
  inb_S1x4x514x514_S1x3x512x512_0_0_0_0 : ∀ a, (![0, 0, 0, 0] : Fin 4 → Nat) a + S1x3x512x512.size a ≤ S1x4x514x514.size a
  h_S1x3x512x512 : 0 < S1x3x512x512.numel
  shapeCasts_S1x3x512x512_S1x3x512x512 : S1x3x512x512.ShapeCasts S1x3x512x512
  inb_S1x4x514x514_S1x1x512x512_0_3_0_0 : ∀ a, (![0, 3, 0, 0] : Fin 4 → Nat) a + S1x1x512x512.size a ≤ S1x4x514x514.size a
  h_S1x1x512x512 : 0 < S1x1x512x512.numel
  shapeCasts_S1x1x512x512_S1x1x512x512 : S1x1x512x512.ShapeCasts S1x1x512x512
  broadcasts_S1x1x512x512_S1x3x512x512 : S1x1x512x512.Broadcasts S1x3x512x512
  inb_S1x4x514x514_S1x3x512x512_0_0_0_1 : ∀ a, (![0, 0, 0, 1] : Fin 4 → Nat) a + S1x3x512x512.size a ≤ S1x4x514x514.size a
  inb_S1x4x514x514_S1x1x512x512_0_3_0_1 : ∀ a, (![0, 3, 0, 1] : Fin 4 → Nat) a + S1x1x512x512.size a ≤ S1x4x514x514.size a
  inb_S1x4x514x514_S1x3x512x512_0_0_0_2 : ∀ a, (![0, 0, 0, 2] : Fin 4 → Nat) a + S1x3x512x512.size a ≤ S1x4x514x514.size a
  inb_S1x4x514x514_S1x1x512x512_0_3_0_2 : ∀ a, (![0, 3, 0, 2] : Fin 4 → Nat) a + S1x1x512x512.size a ≤ S1x4x514x514.size a
  inb_S1x4x514x514_S1x3x512x512_0_0_1_0 : ∀ a, (![0, 0, 1, 0] : Fin 4 → Nat) a + S1x3x512x512.size a ≤ S1x4x514x514.size a
  inb_S1x4x514x514_S1x1x512x512_0_3_1_0 : ∀ a, (![0, 3, 1, 0] : Fin 4 → Nat) a + S1x1x512x512.size a ≤ S1x4x514x514.size a
  inb_S1x4x514x514_S1x3x512x512_0_0_1_1 : ∀ a, (![0, 0, 1, 1] : Fin 4 → Nat) a + S1x3x512x512.size a ≤ S1x4x514x514.size a
  inb_S1x4x514x514_S1x1x512x512_0_3_1_1 : ∀ a, (![0, 3, 1, 1] : Fin 4 → Nat) a + S1x1x512x512.size a ≤ S1x4x514x514.size a
  inb_S1x4x514x514_S1x3x512x512_0_0_1_2 : ∀ a, (![0, 0, 1, 2] : Fin 4 → Nat) a + S1x3x512x512.size a ≤ S1x4x514x514.size a
  inb_S1x4x514x514_S1x1x512x512_0_3_1_2 : ∀ a, (![0, 3, 1, 2] : Fin 4 → Nat) a + S1x1x512x512.size a ≤ S1x4x514x514.size a
  inb_S1x4x514x514_S1x3x512x512_0_0_2_0 : ∀ a, (![0, 0, 2, 0] : Fin 4 → Nat) a + S1x3x512x512.size a ≤ S1x4x514x514.size a
  inb_S1x4x514x514_S1x1x512x512_0_3_2_0 : ∀ a, (![0, 3, 2, 0] : Fin 4 → Nat) a + S1x1x512x512.size a ≤ S1x4x514x514.size a
  inb_S1x4x514x514_S1x3x512x512_0_0_2_1 : ∀ a, (![0, 0, 2, 1] : Fin 4 → Nat) a + S1x3x512x512.size a ≤ S1x4x514x514.size a
  inb_S1x4x514x514_S1x1x512x512_0_3_2_1 : ∀ a, (![0, 3, 2, 1] : Fin 4 → Nat) a + S1x1x512x512.size a ≤ S1x4x514x514.size a
  inb_S1x4x514x514_S1x3x512x512_0_0_2_2 : ∀ a, (![0, 0, 2, 2] : Fin 4 → Nat) a + S1x3x512x512.size a ≤ S1x4x514x514.size a
  inb_S1x4x514x514_S1x1x512x512_0_3_2_2 : ∀ a, (![0, 3, 2, 2] : Fin 4 → Nat) a + S1x1x512x512.size a ≤ S1x4x514x514.size a
  inb_S1x3x512x512_S1x3x512x512_0_0_0_0 : ∀ a, (![0, 0, 0, 0] : Fin 4 → Nat) a + S1x3x512x512.size a ≤ S1x3x512x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x514x514.size a ≤ S16x4x514x514.size a
  hwx0_0 : ∀ i : grid0.Coords, EltTy.bits .f32 = 32 ∨ (Rect.block (s := S16x4x514x514) S1x4x514x514.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)

variable [Facts₀]

abbrev win0_0 : Pipeline.Window sig grid0 :=
  Pipeline.Window.ofSpec (Memref.whole main_v0) S1x4x514x514.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4x512x512 : Shape := ⟨4, ![16, 4, 512, 512]⟩
abbrev S_ : Shape := ⟨0, ![]⟩
abbrev S16x4x514x514 : Shape := ⟨4, ![16, 4, 514, 514]⟩
abbrev S16x3x514x514 : Shape := ⟨4, ![16, 3, 514, 514]⟩
abbrev S16x1x514x514 : Shape := ⟨4, ![16, 1, 514, 514]⟩
abbrev S16x3x512x512 : Shape := ⟨4, ![16, 3, 512, 512]⟩
abbrev S16x1x512x512 : Shape := ⟨4, ![16, 1, 512, 512]⟩

abbrev nBuf : Space → Nat
  | .hbm => 53
  | .vmem => 0
  | .smem => 0
  | _ => 0

abbrev bufTy : (tb : Table) → Fin (tcTables nBuf tb) → BufTy
  | .hbm, ⟨0, _⟩ => ⟨S16x4x512x512, .f32⟩
  | .hbm, ⟨1, _⟩ => ⟨S_, .i32⟩
  | .hbm, ⟨2, _⟩ => ⟨S_, .f32⟩
  | .hbm, ⟨3, _⟩ => ⟨S16x4x514x514, .f32⟩
  | .hbm, ⟨4, _⟩ => ⟨S16x3x514x514, .f32⟩
  | .hbm, ⟨5, _⟩ => ⟨S16x1x514x514, .f32⟩
  | .hbm, ⟨6, _⟩ => ⟨S_, .f32⟩
  | .hbm, ⟨7, _⟩ => ⟨S16x3x512x512, .f32⟩
  | .hbm, ⟨8, _⟩ => ⟨S16x3x512x512, .f32⟩
  | .hbm, ⟨9, _⟩ => ⟨S16x1x512x512, .f32⟩
  | .hbm, ⟨10, _⟩ => ⟨S16x3x512x512, .f32⟩
  | .hbm, ⟨11, _⟩ => ⟨S16x3x512x512, .f32⟩
  | .hbm, ⟨12, _⟩ => ⟨S16x3x512x512, .f32⟩
  | .hbm, ⟨13, _⟩ => ⟨S16x3x512x512, .f32⟩
  | .hbm, ⟨14, _⟩ => ⟨S16x1x512x512, .f32⟩
  | .hbm, ⟨15, _⟩ => ⟨S16x3x512x512, .f32⟩
  | .hbm, ⟨16, _⟩ => ⟨S16x3x512x512, .f32⟩
  | .hbm, ⟨17, _⟩ => ⟨S16x3x512x512, .f32⟩
  | .hbm, ⟨18, _⟩ => ⟨S16x3x512x512, .f32⟩
  | .hbm, ⟨19, _⟩ => ⟨S16x1x512x512, .f32⟩
  | .hbm, ⟨20, _⟩ => ⟨S16x3x512x512, .f32⟩
  | .hbm, ⟨21, _⟩ => ⟨S16x3x512x512, .f32⟩
  | .hbm, ⟨22, _⟩ => ⟨S16x3x512x512, .f32⟩
  | .hbm, ⟨23, _⟩ => ⟨S16x3x512x512, .f32⟩
  | .hbm, ⟨24, _⟩ => ⟨S16x1x512x512, .f32⟩
  | .hbm, ⟨25, _⟩ => ⟨S16x3x512x512, .f32⟩
  | .hbm, ⟨26, _⟩ => ⟨S16x3x512x512, .f32⟩
  | .hbm, ⟨27, _⟩ => ⟨S16x3x512x512, .f32⟩
  | .hbm, ⟨28, _⟩ => ⟨S16x3x512x512, .f32⟩
  | .hbm, ⟨29, _⟩ => ⟨S16x1x512x512, .f32⟩
  | .hbm, ⟨30, _⟩ => ⟨S16x3x512x512, .f32⟩
  | .hbm, ⟨31, _⟩ => ⟨S16x3x512x512, .f32⟩
  | .hbm, ⟨32, _⟩ => ⟨S16x3x512x512, .f32⟩
  | .hbm, ⟨33, _⟩ => ⟨S16x3x512x512, .f32⟩
  | .hbm, ⟨34, _⟩ => ⟨S16x1x512x512, .f32⟩
  | .hbm, ⟨35, _⟩ => ⟨S16x3x512x512, .f32⟩
  | .hbm, ⟨36, _⟩ => ⟨S16x3x512x512, .f32⟩
  | .hbm, ⟨37, _⟩ => ⟨S16x3x512x512, .f32⟩
  | .hbm, ⟨38, _⟩ => ⟨S16x3x512x512, .f32⟩
  | .hbm, ⟨39, _⟩ => ⟨S16x1x512x512, .f32⟩
  | .hbm, ⟨40, _⟩ => ⟨S16x3x512x512, .f32⟩
  | .hbm, ⟨41, _⟩ => ⟨S16x3x512x512, .f32⟩
  | .hbm, ⟨42, _⟩ => ⟨S16x3x512x512, .f32⟩
  | .hbm, ⟨43, _⟩ => ⟨S16x3x512x512, .f32⟩
  | .hbm, ⟨44, _⟩ => ⟨S16x1x512x512, .f32⟩
  | .hbm, ⟨45, _⟩ => ⟨S16x3x512x512, .f32⟩
  | .hbm, ⟨46, _⟩ => ⟨S16x3x512x512, .f32⟩
  | .hbm, ⟨47, _⟩ => ⟨S16x3x512x512, .f32⟩
  | .hbm, ⟨48, _⟩ => ⟨S16x3x512x512, .f32⟩
  | .hbm, ⟨49, _⟩ => ⟨S16x1x512x512, .f32⟩
  | .hbm, ⟨50, _⟩ => ⟨S16x3x512x512, .f32⟩
  | .hbm, ⟨51, _⟩ => ⟨S16x3x512x512, .f32⟩
  | .hbm, ⟨52, _⟩ => ⟨S16x3x512x512, .f32⟩
  | _, _ => ⟨S16x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩

abbrev nD : Nat := 1
abbrev τ : Topo := Topo.v7x

variable {F : FTy → Type} [FloatOps F]

class Facts₀ : Prop where
  pads_S16x4x512x512_S16x4x514x514_000_000_110_110 : S16x4x512x512.Pads (![0, 0, 1, 1] : Fin 4 → Nat) ![0, 0, 1, 1] ![0, 0, 0, 0] S16x4x514x514
  h_S_ : 0 < S_.numel
  slices_S16x4x514x514_S16x3x514x514_0_0_0_0 : S16x4x514x514.Slices ![0, 0, 0, 0] S16x3x514x514
  slices_S16x4x514x514_S16x1x514x514_0_3_0_0 : S16x4x514x514.Slices ![0, 3, 0, 0] S16x1x514x514
  bcast_S_S16x3x512x512 : S_.BroadcastsInDim S16x3x512x512 (![] : Fin 0 → Fin S16x3x512x512.rank)
  slices_S16x3x514x514_S16x3x512x512_0_0_0_0 : S16x3x514x514.Slices ![0, 0, 0, 0] S16x3x512x512
  slices_S16x1x514x514_S16x1x512x512_0_0_0_0 : S16x1x514x514.Slices ![0, 0, 0, 0] S16x1x512x512
  bcast_S16x1x512x512_S16x3x512x512_0_1_2_3 : S16x1x512x512.BroadcastsInDim S16x3x512x512 (![0, 1, 2, 3] : Fin 4 → Fin S16x3x512x512.rank)
  slices_S16x3x514x514_S16x3x512x512_0_0_0_1 : S16x3x514x514.Slices ![0, 0, 0, 1] S16x3x512x512
  slices_S16x1x514x514_S16x1x512x512_0_0_0_1 : S16x1x514x514.Slices ![0, 0, 0, 1] S16x1x512x512
  slices_S16x3x514x514_S16x3x512x512_0_0_0_2 : S16x3x514x514.Slices ![0, 0, 0, 2] S16x3x512x512
  slices_S16x1x514x514_S16x1x512x512_0_0_0_2 : S16x1x514x514.Slices ![0, 0, 0, 2] S16x1x512x512
  slices_S16x3x514x514_S16x3x512x512_0_0_1_0 : S16x3x514x514.Slices ![0, 0, 1, 0] S16x3x512x512
  slices_S16x1x514x514_S16x1x512x512_0_0_1_0 : S16x1x514x514.Slices ![0, 0, 1, 0] S16x1x512x512
  slices_S16x3x514x514_S16x3x512x512_0_0_1_1 : S16x3x514x514.Slices ![0, 0, 1, 1] S16x3x512x512
  slices_S16x1x514x514_S16x1x512x512_0_0_1_1 : S16x1x514x514.Slices ![0, 0, 1, 1] S16x1x512x512
  slices_S16x3x514x514_S16x3x512x512_0_0_1_2 : S16x3x514x514.Slices ![0, 0, 1, 2] S16x3x512x512
  slices_S16x1x514x514_S16x1x512x512_0_0_1_2 : S16x1x514x514.Slices ![0, 0, 1, 2] S16x1x512x512
  slices_S16x3x514x514_S16x3x512x512_0_0_2_0 : S16x3x514x514.Slices ![0, 0, 2, 0] S16x3x512x512
  slices_S16x1x514x514_S16x1x512x512_0_0_2_0 : S16x1x514x514.Slices ![0, 0, 2, 0] S16x1x512x512
  slices_S16x3x514x514_S16x3x512x512_0_0_2_1 : S16x3x514x514.Slices ![0, 0, 2, 1] S16x3x512x512
  slices_S16x1x514x514_S16x1x512x512_0_0_2_1 : S16x1x514x514.Slices ![0, 0, 2, 1] S16x1x512x512
  slices_S16x3x514x514_S16x3x512x512_0_0_2_2 : S16x3x514x514.Slices ![0, 0, 2, 2] S16x3x512x512
  slices_S16x1x514x514_S16x1x512x512_0_0_2_2 : S16x1x514x514.Slices ![0, 0, 2, 2] S16x1x512x512

variable [Facts₀]

class Facts : Prop extends Facts₀ where

variable [Facts]
-- ==== Proof.Stencil.lean ====
/-
  The alpha-weighted 3×3 stencil, as one function of a zero-padded RGBA image.

  An image batch has four channels (red, green, blue, alpha) of 514 × 514 pixels: the 512 × 512 picture with a
  one-pixel border.  The result has three channels of 512 × 512 pixels, and its pixel `(r, s)` of colour `ch` is

      0 + ∑ over the window (di, dj) ∈ {0,1,2}², rows first, of  colour(r + di, s + dj) · alpha(r + di, s + dj),

  the nine products added one after another onto zero in that order (the order matters only for the spelling:
  both programs add in it, so no law of the extended reals is needed to join them).  The batch extent `B` is a
  parameter: a whole array has `B = 16`, one grid point's block `B = 1`.
-/
import Idealize.ShloMosaic.Lib.ValueIdx

noncomputable section

namespace Cert.Stencil

open Idealize.ShloMosaic Idealize.ShloMosaic.ValueIdx

variable {F : FTy → Type} [FloatOps F]

/-- A batch of `B` padded four-channel images. -/
abbrev Padded (B : Nat) : Shape := ⟨4, ![B, 4, 514, 514]⟩
/-- A batch of `B` three-channel results. -/
abbrev Result (B : Nat) : Shape := ⟨4, ![B, 3, 512, 512]⟩

/-- Pixel `(r + di, s + dj)` of channel `ch` of padded image `b`: the window's displacement `(di, dj)` is at most
    two each way, so the pixel is inside the 514 × 514 padded picture. -/
def px {B : Nat} (b : Fin B) (ch : Fin 4) (r s : Fin 512) (di dj : Fin 3) : (Padded B).Idx :=
  ix4 b ch ⟨r.val + di.val, by omega⟩ ⟨s.val + dj.val, by omega⟩

/-- The alpha channel is the fourth. -/
abbrev alpha : Fin 4 := 3

/-- Colour channel `ch` among the four. -/
abbrev colour (ch : Fin 3) : Fin 4 := ⟨ch.val, by omega⟩

/-- One tap of the window: the colour at the displaced pixel times the alpha there. -/
def tap {B : Nat} (xp : Vec F (Padded B) .f32) (b : Fin B) (ch : Fin 3) (r s : Fin 512) (di dj : Fin 3) : F .f32 :=
  FloatOps.mulf (xp (px b (colour ch) r s di dj)) (xp (px b alpha r s di dj))

/-- The nine taps added onto zero, rows of the window first. -/
def convAt {B : Nat} (xp : Vec F (Padded B) .f32) (b : Fin B) (ch : Fin 3) (r s : Fin 512) : F .f32 :=
  FloatOps.addf (FloatOps.addf (FloatOps.addf (FloatOps.addf (FloatOps.addf (FloatOps.addf (FloatOps.addf
    (FloatOps.addf (FloatOps.addf (FloatOps.ofBits .f32 0x00000000#32)
      (tap xp b ch r s 0 0)) (tap xp b ch r s 0 1)) (tap xp b ch r s 0 2))
      (tap xp b ch r s 1 0)) (tap xp b ch r s 1 1)) (tap xp b ch r s 1 2))
      (tap xp b ch r s 2 0)) (tap xp b ch r s 2 1)) (tap xp b ch r s 2 2)

/-- The stencil of a whole batch: every result pixel from the padded images. -/
def conv {B : Nat} (xp : Vec F (Padded B) .f32) : Vec F (Result B) .f32 :=
  fun i => convAt xp (i 0) (i 1) (i 2) (i 3)

theorem conv_apply {B : Nat} (xp : Vec F (Padded B) .f32) (i : (Result B).Idx) :
    conv xp i = convAt xp (i 0) (i 1) (i 2) (i 3) := rfl

/-- A block is a slice of the batch: if the one-image batch `xb` is image `b` of the batch `xa`, pixel for pixel,
    then the stencil of `xb` at a pixel is the stencil of `xa` at the same pixel of image `b`.  Each tap reads
    only image `b`, so the nine products and their sum are the same terms. -/
theorem convAt_block {B : Nat} (xa : Vec F (Padded B) .f32) (xb : Vec F (Padded 1) .f32) (b : Fin B)
    (h : ∀ idx : (Padded 1).Idx, xb idx = xa (ix4 b (idx 1) (idx 2) (idx 3)))
    (b0 : Fin 1) (ch : Fin 3) (r s : Fin 512) :
    convAt xb b0 ch r s = convAt xa b ch r s := by
  unfold convAt tap
  simp only [h]
  rfl

/-- The same for whole results: result index `j` of the block and result index `i` of the batch that name the same
    pixel of the same colour, `i` in image `b`, hold the same value. -/
theorem conv_block {B : Nat} (xa : Vec F (Padded B) .f32) (xb : Vec F (Padded 1) .f32) (b : Fin B)
    (h : ∀ idx : (Padded 1).Idx, xb idx = xa (ix4 b (idx 1) (idx 2) (idx 3)))
    (j : (Result 1).Idx) (i : (Result B).Idx) (h0 : i 0 = b) (h1 : i 1 = j 1) (h2 : i 2 = j 2) (h3 : i 3 = j 3) :
    conv xb j = conv xa i := by
  rw [conv_apply, conv_apply, h0, h1, h2, h3]
  exact convAt_block xa xb b h (j 0) (j 1) (j 2) (j 3)

end Cert.Stencil

end
-- ==== Proof.BlockStencil.lean ====
/-
  One grid point's block is the stencil of the padded image it stages.

  At a grid point the kernel holds one padded four-channel image (a block of batch extent 1).  Its body loads, for
  each displacement (di, dj) of the 3 × 3 window, rows first, the 3 × 512 × 512 rectangle of the colour planes and
  the 1 × 512 × 512 rectangle of the alpha plane that start at row di, column dj, spreads the alpha rectangle over
  the three colours, multiplies, and adds the product onto an accumulator that starts at zero; it stores the
  accumulator over the whole output block.  Read at a block index, the stored value is zero plus the nine products
  of the loaded rectangles' entries under that index, in the window's order; a rectangle that starts at row di,
  column dj of a plane puts block pixel (r, s) at image pixel (r + di, s + dj) of that plane, and the alpha
  rectangle, having one plane, is read at the same pixel for every colour.  So the block is the stencil's formula
  at each of its pixels.
-/
import proofs.«107603_j89258010346015_2_alg».proof.Proof.Gen.KernelIdeal.Value
import proofs.«107603_j89258010346015_2_alg».proof.Proof.Stencil

noncomputable section

namespace Cert.KernelIdeal.BlockStencil

open Cert.KernelIdeal Cert.KernelIdeal.Gen Cert.KernelIdeal.Value Cert.Stencil Idealize.ShloMosaic Idealize.ShloMosaic.ValueIdx

variable {F : FTy → Type} [FloatOps F]

/-- The colour load of the tap at displacement (0, 0) reads, under block index `y`, the colour pixel displaced by
    (0, 0): the load's rectangle starts at row 0, column 0 of the three colour planes. -/
theorem colour_at_0_0 (y : S1x3x512x512.Idx) :
    px (B := 1) (y 0) (colour (y 1)) (y 2) (y 3) 0 0 = r0_0.idx (ix1_0 y) := by
  have h0 : (y 0).val < 1 := (y 0).isLt
  funext a; apply Fin.ext
  match a with
  | ⟨0, _⟩ => show (y 0).val = 0 + 1 * 0; omega
  | ⟨1, _⟩ => show (y 1).val = 0 + 1 * (y 1).val; omega
  | ⟨2, _⟩ => show (y 2).val + 0 = 0 + 1 * (y 2).val; omega
  | ⟨3, _⟩ => show (y 3).val + 0 = 0 + 1 * (y 3).val; omega

/-- The alpha load of that tap reads the alpha pixel at the same displacement: its rectangle starts at row 0,
    column 0 of the fourth plane, and the one plane serves all three colours. -/
theorem alpha_at_0_0 (y : S1x3x512x512.Idx) :
    px (B := 1) (y 0) alpha (y 2) (y 3) 0 0 = r0_1.idx (ix1_1 y) := by
  have h0 : (y 0).val < 1 := (y 0).isLt
  funext a; apply Fin.ext
  match a with
  | ⟨0, _⟩ => show (y 0).val = 0 + 1 * 0; omega
  | ⟨1, _⟩ => show 3 = 3 + 1 * 0; omega
  | ⟨2, _⟩ => show (y 2).val + 0 = 0 + 1 * (y 2).val; omega
  | ⟨3, _⟩ => show (y 3).val + 0 = 0 + 1 * (y 3).val; omega

/-- The colour load of the tap at displacement (0, 1) reads, under block index `y`, the colour pixel displaced by
    (0, 1): the load's rectangle starts at row 0, column 1 of the three colour planes. -/
theorem colour_at_0_1 (y : S1x3x512x512.Idx) :
    px (B := 1) (y 0) (colour (y 1)) (y 2) (y 3) 0 1 = r0_2.idx (ix1_2 y) := by
  have h0 : (y 0).val < 1 := (y 0).isLt
  funext a; apply Fin.ext
  match a with
  | ⟨0, _⟩ => show (y 0).val = 0 + 1 * 0; omega
  | ⟨1, _⟩ => show (y 1).val = 0 + 1 * (y 1).val; omega
  | ⟨2, _⟩ => show (y 2).val + 0 = 0 + 1 * (y 2).val; omega
  | ⟨3, _⟩ => show (y 3).val + 1 = 1 + 1 * (y 3).val; omega

/-- The alpha load of that tap reads the alpha pixel at the same displacement: its rectangle starts at row 0,
    column 1 of the fourth plane, and the one plane serves all three colours. -/
theorem alpha_at_0_1 (y : S1x3x512x512.Idx) :
    px (B := 1) (y 0) alpha (y 2) (y 3) 0 1 = r0_3.idx (ix1_3 y) := by
  have h0 : (y 0).val < 1 := (y 0).isLt
  funext a; apply Fin.ext
  match a with
  | ⟨0, _⟩ => show (y 0).val = 0 + 1 * 0; omega
  | ⟨1, _⟩ => show 3 = 3 + 1 * 0; omega
  | ⟨2, _⟩ => show (y 2).val + 0 = 0 + 1 * (y 2).val; omega
  | ⟨3, _⟩ => show (y 3).val + 1 = 1 + 1 * (y 3).val; omega

/-- The colour load of the tap at displacement (0, 2) reads, under block index `y`, the colour pixel displaced by
    (0, 2): the load's rectangle starts at row 0, column 2 of the three colour planes. -/
theorem colour_at_0_2 (y : S1x3x512x512.Idx) :
    px (B := 1) (y 0) (colour (y 1)) (y 2) (y 3) 0 2 = r0_4.idx (ix1_4 y) := by
  have h0 : (y 0).val < 1 := (y 0).isLt
  funext a; apply Fin.ext
  match a with
  | ⟨0, _⟩ => show (y 0).val = 0 + 1 * 0; omega
  | ⟨1, _⟩ => show (y 1).val = 0 + 1 * (y 1).val; omega
  | ⟨2, _⟩ => show (y 2).val + 0 = 0 + 1 * (y 2).val; omega
  | ⟨3, _⟩ => show (y 3).val + 2 = 2 + 1 * (y 3).val; omega

/-- The alpha load of that tap reads the alpha pixel at the same displacement: its rectangle starts at row 0,
    column 2 of the fourth plane, and the one plane serves all three colours. -/
theorem alpha_at_0_2 (y : S1x3x512x512.Idx) :
    px (B := 1) (y 0) alpha (y 2) (y 3) 0 2 = r0_5.idx (ix1_5 y) := by
  have h0 : (y 0).val < 1 := (y 0).isLt
  funext a; apply Fin.ext
  match a with
  | ⟨0, _⟩ => show (y 0).val = 0 + 1 * 0; omega
  | ⟨1, _⟩ => show 3 = 3 + 1 * 0; omega
  | ⟨2, _⟩ => show (y 2).val + 0 = 0 + 1 * (y 2).val; omega
  | ⟨3, _⟩ => show (y 3).val + 2 = 2 + 1 * (y 3).val; omega

/-- The colour load of the tap at displacement (1, 0) reads, under block index `y`, the colour pixel displaced by
    (1, 0): the load's rectangle starts at row 1, column 0 of the three colour planes. -/
theorem colour_at_1_0 (y : S1x3x512x512.Idx) :
    px (B := 1) (y 0) (colour (y 1)) (y 2) (y 3) 1 0 = r0_6.idx (ix1_6 y) := by
  have h0 : (y 0).val < 1 := (y 0).isLt
  funext a; apply Fin.ext
  match a with
  | ⟨0, _⟩ => show (y 0).val = 0 + 1 * 0; omega
  | ⟨1, _⟩ => show (y 1).val = 0 + 1 * (y 1).val; omega
  | ⟨2, _⟩ => show (y 2).val + 1 = 1 + 1 * (y 2).val; omega
  | ⟨3, _⟩ => show (y 3).val + 0 = 0 + 1 * (y 3).val; omega

/-- The alpha load of that tap reads the alpha pixel at the same displacement: its rectangle starts at row 1,
    column 0 of the fourth plane, and the one plane serves all three colours. -/
theorem alpha_at_1_0 (y : S1x3x512x512.Idx) :
    px (B := 1) (y 0) alpha (y 2) (y 3) 1 0 = r0_7.idx (ix1_7 y) := by
  have h0 : (y 0).val < 1 := (y 0).isLt
  funext a; apply Fin.ext
  match a with
  | ⟨0, _⟩ => show (y 0).val = 0 + 1 * 0; omega
  | ⟨1, _⟩ => show 3 = 3 + 1 * 0; omega
  | ⟨2, _⟩ => show (y 2).val + 1 = 1 + 1 * (y 2).val; omega
  | ⟨3, _⟩ => show (y 3).val + 0 = 0 + 1 * (y 3).val; omega

/-- The colour load of the tap at displacement (1, 1) reads, under block index `y`, the colour pixel displaced by
    (1, 1): the load's rectangle starts at row 1, column 1 of the three colour planes. -/
theorem colour_at_1_1 (y : S1x3x512x512.Idx) :
    px (B := 1) (y 0) (colour (y 1)) (y 2) (y 3) 1 1 = r0_8.idx (ix1_8 y) := by
  have h0 : (y 0).val < 1 := (y 0).isLt
  funext a; apply Fin.ext
  match a with
  | ⟨0, _⟩ => show (y 0).val = 0 + 1 * 0; omega
  | ⟨1, _⟩ => show (y 1).val = 0 + 1 * (y 1).val; omega
  | ⟨2, _⟩ => show (y 2).val + 1 = 1 + 1 * (y 2).val; omega
  | ⟨3, _⟩ => show (y 3).val + 1 = 1 + 1 * (y 3).val; omega

/-- The alpha load of that tap reads the alpha pixel at the same displacement: its rectangle starts at row 1,
    column 1 of the fourth plane, and the one plane serves all three colours. -/
theorem alpha_at_1_1 (y : S1x3x512x512.Idx) :
    px (B := 1) (y 0) alpha (y 2) (y 3) 1 1 = r0_9.idx (ix1_9 y) := by
  have h0 : (y 0).val < 1 := (y 0).isLt
  funext a; apply Fin.ext
  match a with
  | ⟨0, _⟩ => show (y 0).val = 0 + 1 * 0; omega
  | ⟨1, _⟩ => show 3 = 3 + 1 * 0; omega
  | ⟨2, _⟩ => show (y 2).val + 1 = 1 + 1 * (y 2).val; omega
  | ⟨3, _⟩ => show (y 3).val + 1 = 1 + 1 * (y 3).val; omega

/-- The colour load of the tap at displacement (1, 2) reads, under block index `y`, the colour pixel displaced by
    (1, 2): the load's rectangle starts at row 1, column 2 of the three colour planes. -/
theorem colour_at_1_2 (y : S1x3x512x512.Idx) :
    px (B := 1) (y 0) (colour (y 1)) (y 2) (y 3) 1 2 = r0_10.idx (ix1_10 y) := by
  have h0 : (y 0).val < 1 := (y 0).isLt
  funext a; apply Fin.ext
  match a with
  | ⟨0, _⟩ => show (y 0).val = 0 + 1 * 0; omega
  | ⟨1, _⟩ => show (y 1).val = 0 + 1 * (y 1).val; omega
  | ⟨2, _⟩ => show (y 2).val + 1 = 1 + 1 * (y 2).val; omega
  | ⟨3, _⟩ => show (y 3).val + 2 = 2 + 1 * (y 3).val; omega

/-- The alpha load of that tap reads the alpha pixel at the same displacement: its rectangle starts at row 1,
    column 2 of the fourth plane, and the one plane serves all three colours. -/
theorem alpha_at_1_2 (y : S1x3x512x512.Idx) :
    px (B := 1) (y 0) alpha (y 2) (y 3) 1 2 = r0_11.idx (ix1_11 y) := by
  have h0 : (y 0).val < 1 := (y 0).isLt
  funext a; apply Fin.ext
  match a with
  | ⟨0, _⟩ => show (y 0).val = 0 + 1 * 0; omega
  | ⟨1, _⟩ => show 3 = 3 + 1 * 0; omega
  | ⟨2, _⟩ => show (y 2).val + 1 = 1 + 1 * (y 2).val; omega
  | ⟨3, _⟩ => show (y 3).val + 2 = 2 + 1 * (y 3).val; omega

/-- The colour load of the tap at displacement (2, 0) reads, under block index `y`, the colour pixel displaced by
    (2, 0): the load's rectangle starts at row 2, column 0 of the three colour planes. -/
theorem colour_at_2_0 (y : S1x3x512x512.Idx) :
    px (B := 1) (y 0) (colour (y 1)) (y 2) (y 3) 2 0 = r0_12.idx (ix1_12 y) := by
  have h0 : (y 0).val < 1 := (y 0).isLt
  funext a; apply Fin.ext
  match a with
  | ⟨0, _⟩ => show (y 0).val = 0 + 1 * 0; omega
  | ⟨1, _⟩ => show (y 1).val = 0 + 1 * (y 1).val; omega
  | ⟨2, _⟩ => show (y 2).val + 2 = 2 + 1 * (y 2).val; omega
  | ⟨3, _⟩ => show (y 3).val + 0 = 0 + 1 * (y 3).val; omega

/-- The alpha load of that tap reads the alpha pixel at the same displacement: its rectangle starts at row 2,
    column 0 of the fourth plane, and the one plane serves all three colours. -/
theorem alpha_at_2_0 (y : S1x3x512x512.Idx) :
    px (B := 1) (y 0) alpha (y 2) (y 3) 2 0 = r0_13.idx (ix1_13 y) := by
  have h0 : (y 0).val < 1 := (y 0).isLt
  funext a; apply Fin.ext
  match a with
  | ⟨0, _⟩ => show (y 0).val = 0 + 1 * 0; omega
  | ⟨1, _⟩ => show 3 = 3 + 1 * 0; omega
  | ⟨2, _⟩ => show (y 2).val + 2 = 2 + 1 * (y 2).val; omega
  | ⟨3, _⟩ => show (y 3).val + 0 = 0 + 1 * (y 3).val; omega

/-- The colour load of the tap at displacement (2, 1) reads, under block index `y`, the colour pixel displaced by
    (2, 1): the load's rectangle starts at row 2, column 1 of the three colour planes. -/
theorem colour_at_2_1 (y : S1x3x512x512.Idx) :
    px (B := 1) (y 0) (colour (y 1)) (y 2) (y 3) 2 1 = r0_14.idx (ix1_14 y) := by
  have h0 : (y 0).val < 1 := (y 0).isLt
  funext a; apply Fin.ext
  match a with
  | ⟨0, _⟩ => show (y 0).val = 0 + 1 * 0; omega
  | ⟨1, _⟩ => show (y 1).val = 0 + 1 * (y 1).val; omega
  | ⟨2, _⟩ => show (y 2).val + 2 = 2 + 1 * (y 2).val; omega
  | ⟨3, _⟩ => show (y 3).val + 1 = 1 + 1 * (y 3).val; omega

/-- The alpha load of that tap reads the alpha pixel at the same displacement: its rectangle starts at row 2,
    column 1 of the fourth plane, and the one plane serves all three colours. -/
theorem alpha_at_2_1 (y : S1x3x512x512.Idx) :
    px (B := 1) (y 0) alpha (y 2) (y 3) 2 1 = r0_15.idx (ix1_15 y) := by
  have h0 : (y 0).val < 1 := (y 0).isLt
  funext a; apply Fin.ext
  match a with
  | ⟨0, _⟩ => show (y 0).val = 0 + 1 * 0; omega
  | ⟨1, _⟩ => show 3 = 3 + 1 * 0; omega
  | ⟨2, _⟩ => show (y 2).val + 2 = 2 + 1 * (y 2).val; omega
  | ⟨3, _⟩ => show (y 3).val + 1 = 1 + 1 * (y 3).val; omega

/-- The colour load of the tap at displacement (2, 2) reads, under block index `y`, the colour pixel displaced by
    (2, 2): the load's rectangle starts at row 2, column 2 of the three colour planes. -/
theorem colour_at_2_2 (y : S1x3x512x512.Idx) :
    px (B := 1) (y 0) (colour (y 1)) (y 2) (y 3) 2 2 = r0_16.idx (ix1_16 y) := by
  have h0 : (y 0).val < 1 := (y 0).isLt
  funext a; apply Fin.ext
  match a with
  | ⟨0, _⟩ => show (y 0).val = 0 + 1 * 0; omega
  | ⟨1, _⟩ => show (y 1).val = 0 + 1 * (y 1).val; omega
  | ⟨2, _⟩ => show (y 2).val + 2 = 2 + 1 * (y 2).val; omega
  | ⟨3, _⟩ => show (y 3).val + 2 = 2 + 1 * (y 3).val; omega

/-- The alpha load of that tap reads the alpha pixel at the same displacement: its rectangle starts at row 2,
    column 2 of the fourth plane, and the one plane serves all three colours. -/
theorem alpha_at_2_2 (y : S1x3x512x512.Idx) :
    px (B := 1) (y 0) alpha (y 2) (y 3) 2 2 = r0_17.idx (ix1_17 y) := by
  have h0 : (y 0).val < 1 := (y 0).isLt
  funext a; apply Fin.ext
  match a with
  | ⟨0, _⟩ => show (y 0).val = 0 + 1 * 0; omega
  | ⟨1, _⟩ => show 3 = 3 + 1 * 0; omega
  | ⟨2, _⟩ => show (y 2).val + 2 = 2 + 1 * (y 2).val; omega
  | ⟨3, _⟩ => show (y 3).val + 2 = 2 + 1 * (y 3).val; omega

/-- What the body leaves in the output block, from the staged padded image `x0`, is the stencil of `x0`. -/
theorem out_eq_conv (x0 : Vec F S1x4x514x514 .f32) : out0_1 x0 = conv (B := 1) x0 := by
  funext y
  unfold out0_1
  refine (canon1_eq _ _ _ _ _ _ _ _ _ _ _ _ _ _ _ _ _ _ y).trans ?_
  rw [conv_apply]
  unfold convAt tap
  rw [colour_at_0_0 y, alpha_at_0_0 y, colour_at_0_1 y, alpha_at_0_1 y, colour_at_0_2 y, alpha_at_0_2 y, colour_at_1_0 y, alpha_at_1_0 y, colour_at_1_1 y, alpha_at_1_1 y, colour_at_1_2 y, alpha_at_1_2 y, colour_at_2_0 y, alpha_at_2_0 y, colour_at_2_1 y, alpha_at_2_1 y, colour_at_2_2 y, alpha_at_2_2 y]

end Cert.KernelIdeal.BlockStencil

end
-- ==== Proof.KernelStencil.lean ====
/-
  The kernel's result array is the stencil of the zero-padded batch.

  The grid has one point per image of the batch.  Point `t` stages padded image `t` (the input window's block is
  the whole 4 × 514 × 514 image, moving along the batch axis only) and writes result image `t` (the output window's
  block is the whole 3 × 512 × 512 result, moving along the batch axis only).  What a point leaves in its output
  block is the stencil of the image it staged, and an image's stencil is the batch's stencil restricted to that
  image, so every point writes its block of ONE array function: the stencil of the padded batch.  The sixteen
  blocks tile the result, so after the run the result array is that function everywhere.  The array the input
  window reads was written before the launch by the padding of the argument with zeros.
-/
import proofs.«107603_j89258010346015_2_alg».proof.Proof.Gen.KernelIdeal.Value
import proofs.«107603_j89258010346015_2_alg».proof.Proof.BlockStencil
import Idealize.ShloMosaic.Lib.StableHlo.Run

noncomputable section

namespace Cert.KernelIdeal.KernelStencil

open Cert.KernelIdeal Cert.KernelIdeal.Gen Cert.KernelIdeal.Value Cert.KernelIdeal.BlockStencil Cert.Stencil
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The batch with one pixel of zeros added on each side of the picture (the zero is the integer 0 converted). -/
def padded (x : Vec F S16x4x512x512 .f32) : Vec F S16x4x514x514 .f32 :=
  pad S16x4x514x514 ![0, 0, 1, 1] ![0, 0, 1, 1] ![0, 0, 0, 0] x (sitofp .f32 (constantI S_ 32 0#32))
    pads_S16x4x512x512_S16x4x514x514_000_000_110_110 h_S_

/-- The array the input window reads is the padded argument: the operations before the launch are the integer
    zero, its conversion, and the padding. -/
theorem staged_eq (c : Dev nD) :
    (V m c main_v0 : S16x4x514x514.Idx → Elt F .f32) = padded (m ((c : Thread nD τ).loc main_arg0)) := by
  dsimp only [Gen.V]
  simp only [Gen.hostOps0, Gen.hostOps0_1, List.flatten_cons, List.flatten_nil, List.append_nil, List.cons_append,
    List.nil_append]
  after_results
  rfl

/-- Both windows move along the batch axis only, and together: at every point the two block indices agree on the
    batch axis, are zero on the other three, and the batch index is one of the sixteen images. -/
theorem idx_facts : ∀ t : Fin cfg0.N,
    win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_1.index t (0 : Fin 4) < 16 :=
  (by decide +kernel : ∀ t : Fin grid0.N, _)

/-- Every image is some point's. -/
theorem idx_onto : ∀ q : Fin 16, ∃ t : Fin cfg0.N, win0_1.index t = ![q.val, 0, 0, 0] :=
  (by decide +kernel : ∀ q : Fin 16, ∃ t : Fin grid0.N, win0_1.index t = ![q.val, 0, 0, 0])

/-- What point `t` writes back is block `t` of the stencil of the padded batch as the launch finds it. -/
theorem flushed_eq (c : Dev nD) (t : Fin cfg0.N) :
    (dats m 0 c).flushed 1 t = ((cfg0.win 1).blk t).view.read (Elt F) (conv (B := 16) (V m c main_v0)) := by
  rw [Value.flushed1]
  refine (congrArg ((cfg0.win 1).cut (grid0.coords t)) (out_eq_conv (F := F) (iblk m c 0 t))).trans ?_
  obtain ⟨e0, e1, e2, e3, e4, e5, e6, e7⟩ := idx_facts t
  funext j
  show conv (B := 1) (iblk m c 0 t) j = conv (B := 16) (V m c main_v0) (((cfg0.win 1).blk t).view.emb j)
  have hj0 : (j 0).val < 1 := (j 0).isLt
  refine conv_block (V m c main_v0) (iblk m c 0 t) ⟨win0_1.index t (0 : Fin 4), e7⟩ ?_ j
    (((cfg0.win 1).blk t).view.emb j) ?_ ?_ ?_ ?_
  · intro idx
    have hi0 : (idx 0).val < 1 := (idx 0).isLt
    show V m c main_v0 (((cfg0.win 0).blk t).view.emb idx) = _
    refine congrArg (V m c main_v0) ?_
    funext a; apply Fin.ext
    match a with
    | ⟨0, _⟩ => show win0_0.index t (0 : Fin 4) * 1 + 1 * (idx 0).val = win0_1.index t (0 : Fin 4); omega
    | ⟨1, _⟩ => show win0_0.index t (1 : Fin 4) * 4 + 1 * (idx 1).val = (idx 1).val; omega
    | ⟨2, _⟩ => show win0_0.index t (2 : Fin 4) * 514 + 1 * (idx 2).val = (idx 2).val; omega
    | ⟨3, _⟩ => show win0_0.index t (3 : Fin 4) * 514 + 1 * (idx 3).val = (idx 3).val; omega
  · apply Fin.ext; show win0_1.index t (0 : Fin 4) * 1 + 1 * (j 0).val = win0_1.index t (0 : Fin 4); omega
  · apply Fin.ext; show win0_1.index t (1 : Fin 4) * 3 + 1 * (j 1).val = (j 1).val; omega
  · apply Fin.ext; show win0_1.index t (2 : Fin 4) * 512 + 1 * (j 2).val = (j 2).val; omega
  · apply Fin.ext; show win0_1.index t (3 : Fin 4) * 512 + 1 * (j 3).val = (j 3).val; omega

/-- An index of the result is in point `t`'s block iff each coordinate is in the block's range on its axis. -/
theorem mem_blk (t : Fin cfg0.N) (i : S16x3x512x512.Idx) :
    i ∈ ((cfg0.win 1).blk t).view.set ↔ ∀ a : Fin 4, win0_1.index t a * S1x3x512x512.size a ≤ (i a).val
      ∧ (i a).val < win0_1.index t a * S1x3x512x512.size a + S1x3x512x512.size a := by
  show i ∈ ((View.whole main_v1).slice (win0_1.rect t)).set ↔ _
  rw [View.set_slice_whole, Rect.mem_set_unit]
  exact Iff.rfl

/-- The blocks tile the result: the index of image `b` is in the block of the point whose image is `b`. -/
theorem cover (i : S16x3x512x512.Idx) :
    ∃ t : Fin cfg0.N, (cfg0.win 1).flush t = true ∧ i ∈ ((cfg0.win 1).blk t).view.set := by
  have hi0 : (i 0).val < 16 := (i 0).isLt
  have hi1 : (i 1).val < 3 := (i 1).isLt
  have hi2 : (i 2).val < 512 := (i 2).isLt
  have hi3 : (i 3).val < 512 := (i 3).isLt
  obtain ⟨t, ht⟩ := idx_onto ⟨(i 0).val, hi0⟩
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 3 ≤ (i 1).val ∧ (i 1).val < win0_1.index t (1 : Fin 4) * 3 + 3; omega
  | ⟨2, _⟩ => show win0_1.index t (2 : Fin 4) * 512 ≤ (i 2).val ∧ (i 2).val < win0_1.index t (2 : Fin 4) * 512 + 512; omega
  | ⟨3, _⟩ => show win0_1.index t (3 : Fin 4) * 512 ≤ (i 3).val ∧ (i 3).val < win0_1.index t (3 : Fin 4) * 512 + 512; omega

/-- The result array after the run is the stencil of the padded argument. -/
theorem final (c : Dev nD) :
    (dats m 0 c).arrAt 1 cfg0.N = conv (B := 16) (padded (m ((c : Thread nD τ).loc main_arg0))) :=
  ((dats m 0 c).arrAt_eq_of_cover 1 (conv (B := 16) (V m c main_v0)) (fun t _ => flushed_eq m c t) cover).trans
    (congrArg (conv (B := 16)) (staged_eq m c))

/-- The kernel's run: every weakly fair execution ends with the result at the stencil of the padded argument and
    the argument unchanged. -/
theorem run : θ_run defs (onTc (τ := τ) (main (F := F))) ⟨m, fun _ => 0, ρ⟩ fun r => ∀ c : Dev nD,
      r.2.mem ((c : Thread nD τ).loc main_v1) = conv (B := 16) (padded (m ((c : Thread nD τ).loc main_arg0)))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KernelStencil

end
-- ==== Proof.RefStencil.lean ====
/-
  The reference computes the stencil of its padded batch.

  The reference pads the batch by one pixel of zeros on each side of the picture, cuts the padded batch into its
  colour planes and its alpha plane, and for each displacement (di, dj) of the 3 × 3 window, rows first, slices
  both at that offset, spreads the alpha slice over the three colours, multiplies, and adds the product onto the
  running sum, which starts at zero.  Read at a result index this is the stencil's formula term for term: each
  tap is the colour pixel times the alpha pixel at the displaced position of the padded batch, and the sums nest
  in the same order.  The padding itself is never opened: both sides are functions of the padded batch.
-/
import proofs.«107603_j89258010346015_2_alg».proof.Proof.Gen.ReferenceIdeal.Read
import proofs.«107603_j89258010346015_2_alg».proof.Proof.Stencil

noncomputable section

namespace Cert.ReferenceIdeal.RefStencil

open Cert.ReferenceIdeal Cert.ReferenceIdeal.Read Cert.Stencil Idealize.ShloMosaic Idealize.ShloMosaic.ValueIdx

variable {F : FTy → Type} [FloatOps F]

/-- The window's tap at displacement (0, 0): the reference slices the colour planes and the alpha plane of the
    padded batch at that offset, spreads the alpha plane over the three colours and multiplies. -/
theorem tap_0_0 (x0 : (⟨S16x4x512x512, .f32⟩ : BufTy).Contents (Elt F)) (i : S16x3x512x512.Idx) :
    val_main_v7 (F := F) x0 i = tap (val_main_v0 (F := F) x0) (i 0) (i 1) (i 2) (i 3) 0 0 := by
  have hc : idx_main_v1 (idx_main_v4 i) = px (i 0) (colour (i 1)) (i 2) (i 3) 0 0 := by
    funext a; apply Fin.ext
    match a with
    | ⟨0, _⟩ => rfl
    | ⟨1, _⟩ => rfl
    | ⟨2, _⟩ => show (i 2).val = (i 2).val + 0; omega
    | ⟨3, _⟩ => show (i 3).val = (i 3).val + 0; omega
  have ha : idx_main_v2 (idx_main_v5 (idx_main_v6 i)) = px (i 0) alpha (i 2) (i 3) 0 0 := by
    funext a; apply Fin.ext
    match a with
    | ⟨0, _⟩ => rfl
    | ⟨1, _⟩ => rfl
    | ⟨2, _⟩ => show (i 2).val = (i 2).val + 0; omega
    | ⟨3, _⟩ => show (i 3).val = (i 3).val + 0; omega
  rw [val_main_v7_apply, val_main_v4_apply, val_main_v6_apply, val_main_v5_apply, val_main_v1_apply,
    val_main_v2_apply, hc, ha]
  rfl

/-- The window's tap at displacement (0, 1): the reference slices the colour planes and the alpha plane of the
    padded batch at that offset, spreads the alpha plane over the three colours and multiplies. -/
theorem tap_0_1 (x0 : (⟨S16x4x512x512, .f32⟩ : BufTy).Contents (Elt F)) (i : S16x3x512x512.Idx) :
    val_main_v12 (F := F) x0 i = tap (val_main_v0 (F := F) x0) (i 0) (i 1) (i 2) (i 3) 0 1 := by
  have hc : idx_main_v1 (idx_main_v9 i) = px (i 0) (colour (i 1)) (i 2) (i 3) 0 1 := by
    funext a; apply Fin.ext
    match a with
    | ⟨0, _⟩ => rfl
    | ⟨1, _⟩ => rfl
    | ⟨2, _⟩ => show (i 2).val = (i 2).val + 0; omega
    | ⟨3, _⟩ => show 1 + (i 3).val = (i 3).val + 1; omega
  have ha : idx_main_v2 (idx_main_v10 (idx_main_v11 i)) = px (i 0) alpha (i 2) (i 3) 0 1 := by
    funext a; apply Fin.ext
    match a with
    | ⟨0, _⟩ => rfl
    | ⟨1, _⟩ => rfl
    | ⟨2, _⟩ => show (i 2).val = (i 2).val + 0; omega
    | ⟨3, _⟩ => show 1 + (i 3).val = (i 3).val + 1; omega
  rw [val_main_v12_apply, val_main_v9_apply, val_main_v11_apply, val_main_v10_apply, val_main_v1_apply,
    val_main_v2_apply, hc, ha]
  rfl

/-- The window's tap at displacement (0, 2): the reference slices the colour planes and the alpha plane of the
    padded batch at that offset, spreads the alpha plane over the three colours and multiplies. -/
theorem tap_0_2 (x0 : (⟨S16x4x512x512, .f32⟩ : BufTy).Contents (Elt F)) (i : S16x3x512x512.Idx) :
    val_main_v17 (F := F) x0 i = tap (val_main_v0 (F := F) x0) (i 0) (i 1) (i 2) (i 3) 0 2 := by
  have hc : idx_main_v1 (idx_main_v14 i) = px (i 0) (colour (i 1)) (i 2) (i 3) 0 2 := by
    funext a; apply Fin.ext
    match a with
    | ⟨0, _⟩ => rfl
    | ⟨1, _⟩ => rfl
    | ⟨2, _⟩ => show (i 2).val = (i 2).val + 0; omega
    | ⟨3, _⟩ => show 2 + (i 3).val = (i 3).val + 2; omega
  have ha : idx_main_v2 (idx_main_v15 (idx_main_v16 i)) = px (i 0) alpha (i 2) (i 3) 0 2 := by
    funext a; apply Fin.ext
    match a with
    | ⟨0, _⟩ => rfl
    | ⟨1, _⟩ => rfl
    | ⟨2, _⟩ => show (i 2).val = (i 2).val + 0; omega
    | ⟨3, _⟩ => show 2 + (i 3).val = (i 3).val + 2; omega
  rw [val_main_v17_apply, val_main_v14_apply, val_main_v16_apply, val_main_v15_apply, val_main_v1_apply,
    val_main_v2_apply, hc, ha]
  rfl

/-- The window's tap at displacement (1, 0): the reference slices the colour planes and the alpha plane of the
    padded batch at that offset, spreads the alpha plane over the three colours and multiplies. -/
theorem tap_1_0 (x0 : (⟨S16x4x512x512, .f32⟩ : BufTy).Contents (Elt F)) (i : S16x3x512x512.Idx) :
    val_main_v22 (F := F) x0 i = tap (val_main_v0 (F := F) x0) (i 0) (i 1) (i 2) (i 3) 1 0 := by
  have hc : idx_main_v1 (idx_main_v19 i) = px (i 0) (colour (i 1)) (i 2) (i 3) 1 0 := by
    funext a; apply Fin.ext
    match a with
    | ⟨0, _⟩ => rfl
    | ⟨1, _⟩ => rfl
    | ⟨2, _⟩ => show 1 + (i 2).val = (i 2).val + 1; omega
    | ⟨3, _⟩ => show (i 3).val = (i 3).val + 0; omega
  have ha : idx_main_v2 (idx_main_v20 (idx_main_v21 i)) = px (i 0) alpha (i 2) (i 3) 1 0 := by
    funext a; apply Fin.ext
    match a with
    | ⟨0, _⟩ => rfl
    | ⟨1, _⟩ => rfl
    | ⟨2, _⟩ => show 1 + (i 2).val = (i 2).val + 1; omega
    | ⟨3, _⟩ => show (i 3).val = (i 3).val + 0; omega
  rw [val_main_v22_apply, val_main_v19_apply, val_main_v21_apply, val_main_v20_apply, val_main_v1_apply,
    val_main_v2_apply, hc, ha]
  rfl

/-- The window's tap at displacement (1, 1): the reference slices the colour planes and the alpha plane of the
    padded batch at that offset, spreads the alpha plane over the three colours and multiplies. -/
theorem tap_1_1 (x0 : (⟨S16x4x512x512, .f32⟩ : BufTy).Contents (Elt F)) (i : S16x3x512x512.Idx) :
    val_main_v27 (F := F) x0 i = tap (val_main_v0 (F := F) x0) (i 0) (i 1) (i 2) (i 3) 1 1 := by
  have hc : idx_main_v1 (idx_main_v24 i) = px (i 0) (colour (i 1)) (i 2) (i 3) 1 1 := by
    funext a; apply Fin.ext
    match a with
    | ⟨0, _⟩ => rfl
    | ⟨1, _⟩ => rfl
    | ⟨2, _⟩ => show 1 + (i 2).val = (i 2).val + 1; omega
    | ⟨3, _⟩ => show 1 + (i 3).val = (i 3).val + 1; omega
  have ha : idx_main_v2 (idx_main_v25 (idx_main_v26 i)) = px (i 0) alpha (i 2) (i 3) 1 1 := by
    funext a; apply Fin.ext
    match a with
    | ⟨0, _⟩ => rfl
    | ⟨1, _⟩ => rfl
    | ⟨2, _⟩ => show 1 + (i 2).val = (i 2).val + 1; omega
    | ⟨3, _⟩ => show 1 + (i 3).val = (i 3).val + 1; omega
  rw [val_main_v27_apply, val_main_v24_apply, val_main_v26_apply, val_main_v25_apply, val_main_v1_apply,
    val_main_v2_apply, hc, ha]
  rfl

/-- The window's tap at displacement (1, 2): the reference slices the colour planes and the alpha plane of the
    padded batch at that offset, spreads the alpha plane over the three colours and multiplies. -/
theorem tap_1_2 (x0 : (⟨S16x4x512x512, .f32⟩ : BufTy).Contents (Elt F)) (i : S16x3x512x512.Idx) :
    val_main_v32 (F := F) x0 i = tap (val_main_v0 (F := F) x0) (i 0) (i 1) (i 2) (i 3) 1 2 := by
  have hc : idx_main_v1 (idx_main_v29 i) = px (i 0) (colour (i 1)) (i 2) (i 3) 1 2 := by
    funext a; apply Fin.ext
    match a with
    | ⟨0, _⟩ => rfl
    | ⟨1, _⟩ => rfl
    | ⟨2, _⟩ => show 1 + (i 2).val = (i 2).val + 1; omega
    | ⟨3, _⟩ => show 2 + (i 3).val = (i 3).val + 2; omega
  have ha : idx_main_v2 (idx_main_v30 (idx_main_v31 i)) = px (i 0) alpha (i 2) (i 3) 1 2 := by
    funext a; apply Fin.ext
    match a with
    | ⟨0, _⟩ => rfl
    | ⟨1, _⟩ => rfl
    | ⟨2, _⟩ => show 1 + (i 2).val = (i 2).val + 1; omega
    | ⟨3, _⟩ => show 2 + (i 3).val = (i 3).val + 2; omega
  rw [val_main_v32_apply, val_main_v29_apply, val_main_v31_apply, val_main_v30_apply, val_main_v1_apply,
    val_main_v2_apply, hc, ha]
  rfl

/-- The window's tap at displacement (2, 0): the reference slices the colour planes and the alpha plane of the
    padded batch at that offset, spreads the alpha plane over the three colours and multiplies. -/
theorem tap_2_0 (x0 : (⟨S16x4x512x512, .f32⟩ : BufTy).Contents (Elt F)) (i : S16x3x512x512.Idx) :
    val_main_v37 (F := F) x0 i = tap (val_main_v0 (F := F) x0) (i 0) (i 1) (i 2) (i 3) 2 0 := by
  have hc : idx_main_v1 (idx_main_v34 i) = px (i 0) (colour (i 1)) (i 2) (i 3) 2 0 := by
    funext a; apply Fin.ext
    match a with
    | ⟨0, _⟩ => rfl
    | ⟨1, _⟩ => rfl
    | ⟨2, _⟩ => show 2 + (i 2).val = (i 2).val + 2; omega
    | ⟨3, _⟩ => show (i 3).val = (i 3).val + 0; omega
  have ha : idx_main_v2 (idx_main_v35 (idx_main_v36 i)) = px (i 0) alpha (i 2) (i 3) 2 0 := by
    funext a; apply Fin.ext
    match a with
    | ⟨0, _⟩ => rfl
    | ⟨1, _⟩ => rfl
    | ⟨2, _⟩ => show 2 + (i 2).val = (i 2).val + 2; omega
    | ⟨3, _⟩ => show (i 3).val = (i 3).val + 0; omega
  rw [val_main_v37_apply, val_main_v34_apply, val_main_v36_apply, val_main_v35_apply, val_main_v1_apply,
    val_main_v2_apply, hc, ha]
  rfl

/-- The window's tap at displacement (2, 1): the reference slices the colour planes and the alpha plane of the
    padded batch at that offset, spreads the alpha plane over the three colours and multiplies. -/
theorem tap_2_1 (x0 : (⟨S16x4x512x512, .f32⟩ : BufTy).Contents (Elt F)) (i : S16x3x512x512.Idx) :
    val_main_v42 (F := F) x0 i = tap (val_main_v0 (F := F) x0) (i 0) (i 1) (i 2) (i 3) 2 1 := by
  have hc : idx_main_v1 (idx_main_v39 i) = px (i 0) (colour (i 1)) (i 2) (i 3) 2 1 := by
    funext a; apply Fin.ext
    match a with
    | ⟨0, _⟩ => rfl
    | ⟨1, _⟩ => rfl
    | ⟨2, _⟩ => show 2 + (i 2).val = (i 2).val + 2; omega
    | ⟨3, _⟩ => show 1 + (i 3).val = (i 3).val + 1; omega
  have ha : idx_main_v2 (idx_main_v40 (idx_main_v41 i)) = px (i 0) alpha (i 2) (i 3) 2 1 := by
    funext a; apply Fin.ext
    match a with
    | ⟨0, _⟩ => rfl
    | ⟨1, _⟩ => rfl
    | ⟨2, _⟩ => show 2 + (i 2).val = (i 2).val + 2; omega
    | ⟨3, _⟩ => show 1 + (i 3).val = (i 3).val + 1; omega
  rw [val_main_v42_apply, val_main_v39_apply, val_main_v41_apply, val_main_v40_apply, val_main_v1_apply,
    val_main_v2_apply, hc, ha]
  rfl

/-- The window's tap at displacement (2, 2): the reference slices the colour planes and the alpha plane of the
    padded batch at that offset, spreads the alpha plane over the three colours and multiplies. -/
theorem tap_2_2 (x0 : (⟨S16x4x512x512, .f32⟩ : BufTy).Contents (Elt F)) (i : S16x3x512x512.Idx) :
    val_main_v47 (F := F) x0 i = tap (val_main_v0 (F := F) x0) (i 0) (i 1) (i 2) (i 3) 2 2 := by
  have hc : idx_main_v1 (idx_main_v44 i) = px (i 0) (colour (i 1)) (i 2) (i 3) 2 2 := by
    funext a; apply Fin.ext
    match a with
    | ⟨0, _⟩ => rfl
    | ⟨1, _⟩ => rfl
    | ⟨2, _⟩ => show 2 + (i 2).val = (i 2).val + 2; omega
    | ⟨3, _⟩ => show 2 + (i 3).val = (i 3).val + 2; omega
  have ha : idx_main_v2 (idx_main_v45 (idx_main_v46 i)) = px (i 0) alpha (i 2) (i 3) 2 2 := by
    funext a; apply Fin.ext
    match a with
    | ⟨0, _⟩ => rfl
    | ⟨1, _⟩ => rfl
    | ⟨2, _⟩ => show 2 + (i 2).val = (i 2).val + 2; omega
    | ⟨3, _⟩ => show 2 + (i 3).val = (i 3).val + 2; omega
  rw [val_main_v47_apply, val_main_v44_apply, val_main_v46_apply, val_main_v45_apply, val_main_v1_apply,
    val_main_v2_apply, hc, ha]
  rfl

/-- The reference's last stage is the stencil of its padded batch: the running sum starts at the zero constant
    spread over the result and takes the nine taps in the window's order. -/
theorem result_eq_conv (x0 : (⟨S16x4x512x512, .f32⟩ : BufTy).Contents (Elt F)) :
    val_main_v48 (F := F) x0 = conv (val_main_v0 (F := F) x0) := by
  funext i
  rw [conv_apply]
  unfold convAt
  rw [val_main_v48_apply, val_main_v43_apply, val_main_v38_apply, val_main_v33_apply, val_main_v28_apply,
    val_main_v23_apply, val_main_v18_apply, val_main_v13_apply, val_main_v8_apply, val_main_v3_apply,
    val_main_cst_apply,
    tap_0_0, tap_0_1, tap_0_2, tap_1_0, tap_1_1, tap_1_2, tap_2_0, tap_2_1, tap_2_2]

end Cert.ReferenceIdeal.RefStencil

end
-- ==== Proof.lean ====
/-
  The claim: the kernel and the reference compute the same alpha-weighted 3 × 3 stencil.

  Input: a batch of sixteen RGBA images, x : f32[16, 4, 512, 512].  Both programs first pad every picture with one
  pixel of zeros on each side (xp : f32[16, 4, 514, 514]) and then form, for each image b, colour ch and pixel (r, s),

      out[b, ch, r, s] = 0 + ∑ over (di, dj) ∈ {0,1,2}², rows first, of xp[b, ch, r+di, s+dj] · xp[b, 3, r+di, s+dj].

  The kernel does it one image per grid point, loading shifted rectangles of the staged padded image; the
  reference does it on the whole batch with slices and a broadcast of the alpha plane.  Both add the nine products
  onto zero in the same order, so at the ideal instance the two results are the same term of the padded batch and
  no law of the extended reals, and nothing about finiteness, is used.
    * Proof/Stencil.lean        the formula, for a batch of any extent, and that an image's stencil is the batch's there;
    * Proof/RefStencil.lean     the reference's last stage is the formula of its padded batch;
    * Proof/BlockStencil.lean   the block a grid point leaves is the formula of the image it staged;
    * Proof/KernelStencil.lean  the sixteen blocks make the formula of the padded batch, and the kernel's run.
  The frames: each program terminates without fault and leaves its argument as it was.  The idealization rewrote no
  operation, so there is nothing to preserve.
-/
import proofs.«107603_j89258010346015_2_alg».proof.Defs
import proofs.«107603_j89258010346015_2_alg».proof.Proof.Gen.Kernel
import proofs.«107603_j89258010346015_2_alg».proof.Proof.Gen.Kernel.Frame
import proofs.«107603_j89258010346015_2_alg».proof.Proof.Gen.KernelIdeal
import proofs.«107603_j89258010346015_2_alg».proof.Proof.Gen.KernelIdeal.Frame
import proofs.«107603_j89258010346015_2_alg».proof.Proof.Gen.KernelIdeal.Value
import proofs.«107603_j89258010346015_2_alg».proof.Proof.Gen.ReferenceIdeal
import proofs.«107603_j89258010346015_2_alg».proof.Proof.Gen.ReferenceIdeal.Run
import proofs.«107603_j89258010346015_2_alg».proof.Proof.Gen.ReferenceIdeal.Read
import proofs.«107603_j89258010346015_2_alg».proof.Proof.Gen.Pre_finite_inputs
import proofs.«107603_j89258010346015_2_alg».proof.Proof.KernelStencil
import proofs.«107603_j89258010346015_2_alg».proof.Proof.RefStencil
import Idealize.ShloMosaic.Adequacy
import Idealize.ShloMosaic.Init

noncomputable section

namespace Cert.Proof

open Idealize.ShloMosaic Idealize.SL.Sem

/-- The kernel as printed terminates without fault and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of array operations: it terminates with its argument unchanged (its run, with
    the result forgotten). -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the argument, the kernel's result array and the reference's are both the stencil
    of the zero-padded argument. -/
theorem algebraic : Cert.algebraic_KernelIdeal_ReferenceIdeal := by
  intro m ρ m' ρ' _ hagree
  refine ⟨fun c => Cert.Stencil.conv (B := 16) (Cert.KernelIdeal.KernelStencil.padded
      (m ((c.tc : Thread Cert.KernelIdeal.nD Cert.KernelIdeal.τ).loc Cert.KernelIdeal.main_arg0))),
    Cert.KernelIdeal.KernelStencil.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefStencil.result_eq_conv, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
